-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1024_S1024x8x128 : S1024x1024.ShapeCasts S1024x8x128
  reduces_S1024x8x128_S1024x8 : S1024x8x128.Reduces [2] S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x4096 : Shape := ⟨2, ![1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x32x128, .f32⟩
  | .hbm, ⟨5, _⟩ => ⟨S_, .f32⟩
  | .hbm, ⟨6, _⟩ => ⟨S8192x32, .f32⟩
  | .hbm, ⟨7, _⟩ => ⟨S8192x32x1, .f32⟩
  | .hbm, ⟨8, _⟩ => ⟨S_, .f32⟩
  | .hbm, ⟨9, _⟩ => ⟨S8192x32x1, .f32⟩
  | .hbm, ⟨10, _⟩ => ⟨S8192x32x1, .f32⟩
  | .hbm, ⟨11, _⟩ => ⟨S8192x32x128, .f32⟩
  | .hbm, ⟨12, _⟩ => ⟨S8192x32x128, .f32⟩
  | .hbm, ⟨13, _⟩ => ⟨S8192x32x128, .f32⟩
  | .hbm, ⟨14, _⟩ => ⟨S_, .f32⟩
  | .hbm, ⟨15, _⟩ => ⟨S8192x32, .f32⟩
  | .hbm, ⟨16, _⟩ => ⟨S8192x32x1, .f32⟩
  | .hbm, ⟨17, _⟩ => ⟨S_, .f32⟩
  | .hbm, ⟨18, _⟩ => ⟨S8192x32x1, .f32⟩
  | .hbm, ⟨19, _⟩ => ⟨S8192x32x1, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S8192x32x1, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics of the certificate, free of any program text.

  Both programs compute, for a row `R` and a column `C` of the 8192 x 4096 result,
  the product `y[R, C'] = sum over k of x[R, k] * W[C', k]` for the 128 columns `C'` of the group
  that holds `C` (columns `128 * (C / 128) .. 128 * (C / 128) + 127`), then the group's mean and
  (biased) variance, the normalized entry, the bias `b[C]`, and a clip to `[-2, 2]`.

  They differ in three spellings, each of which is the identity on the extended reals once the
  inputs are real numbers:
  * the kernel adds the product up in eight blocks of 512 terms (`part_step`, `part_full`: a sum over
    `Fin 4096` cut at multiples of 512);
  * the kernel multiplies by `rsqrt (var + eps)` where the reference divides by `sqrt (var + eps)`:
    for a REAL and POSITIVE `var + eps` these agree (`div_sqrt_eq_mul_rsqrt`), and `var + eps` is real and
    positive when the group's entries are real (`gvar_add_eps_pos`: a mean of squares is nonnegative and
    `eps > 0`) — at `-inf`, `0` or a negative value they would differ, which is why finiteness is used;
  * the reference clips twice (`clip_clip`: clipping is idempotent in any linear order).
-/
import Idealize.ShloMosaic.PureOps.Ideal
import Idealize.ShloMosaic.PureOps.Ideal.Laws
import Idealize.ShloMosaic.Lib.ValueIdx

noncomputable section

namespace Cert.GroupNorm

open Idealize.ShloMosaic Idealize.ShloMosaic.ValueIdx

/-! ## The float constants both programs spell, as extended reals -/

/-- `128.0`, the group size both programs divide by. -/
abbrev c128 : EReal := Ideal.ofBits .f32 0x43000000#32
/-- The f32 nearest `1e-6`, added to the variance. -/
abbrev ceps : EReal := Ideal.ofBits .f32 0x358637BD#32
/-- `-2.0` and `2.0`, the clip's bounds. -/
abbrev clo : EReal := Ideal.ofBits .f32 0xC0000000#32
abbrev chi : EReal := Ideal.ofBits .f32 0x40000000#32

theorem c128_eq : c128 = ((128 : ℝ) : EReal) := by
  simp [Ideal.ofBits, Ideal.ieee, -EReal.coe_mul] <;> norm_num

/-- The epsilon is a positive real (its exact value, `8796093 * 2^-43`, is never needed). -/
theorem ceps_pos : ∃ e : ℝ, 0 < e ∧ ceps = (e : EReal) := by
  refine ⟨(8796093 : ℝ) * (2 : ℝ) ^ (-43 : ℤ), by positivity, ?_⟩
  simp [Ideal.ofBits, Ideal.ieee, -EReal.coe_mul] <;> norm_num

/-! ## Finite sums of reals inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is real. -/
theorem sum_mul_real {n : ℕ} (f g : Fin n → EReal) (hf : ∀ k, ∃ r : ℝ, f k = r) (hg : ∀ k, ∃ r : ℝ, g k = r) :
    ∃ r : ℝ, ∑ k, f k * g k = (r : EReal) := by
  choose fr hfr using hf
  choose gr hgr using hg
  refine ⟨∑ k, fr k * gr k, ?_⟩
  rw [coe_sum]
  exact Finset.sum_congr rfl fun k _ => by rw [hfr k, hgr k, EReal.coe_mul]

/-! ## A sum over `Fin 4096` added up 512 terms at a time -/

/-- A function on `Fin 4096` extended by zero to the naturals. -/
def ext (f : Fin 4096 → EReal) (i : ℕ) : EReal := if h : i < 4096 then f ⟨i, h⟩ else 0

/-- The sum of the first `n` terms. -/
def part (f : Fin 4096 → EReal) (n : ℕ) : EReal := ∑ i ∈ Finset.range n, ext f i

theorem part_zero (f : Fin 4096 → EReal) : part f 0 = 0 := by
  unfold part; rw [Finset.range_zero, Finset.sum_empty]

/-- The next 512 terms: block `kk` (of eight) holds the terms `512 * kk .. 512 * kk + 511`. -/
theorem part_step (f : Fin 4096 → EReal) (kk : ℕ) (hk : kk < 8) (g : Fin 512 → EReal)
    (hg : ∀ q : Fin 512, g q = f ⟨512 * kk + q.val, by have := q.isLt; omega⟩) :
    part f (512 * (kk + 1)) = part f (512 * kk) + ∑ q : Fin 512, g q := by
  unfold part
  rw [show 512 * (kk + 1) = 512 * kk + 512 by ring, Finset.sum_range_add,
    Finset.sum_range (fun i => ext f (512 * kk + i))]
  congr 1
  refine Finset.sum_congr rfl fun q _ => ?_
  rw [hg q]
  unfold ext
  rw [dif_pos (by have := q.isLt; omega)]

/-- All eight blocks: the whole sum. -/
theorem part_full (f : Fin 4096 → EReal) : part f 4096 = ∑ k : Fin 4096, f k := by
  unfold part
  rw [Finset.sum_range (fun i => ext f i)]
  exact Finset.sum_congr rfl fun k _ => by unfold ext; rw [dif_pos k.isLt]

/-! ## One group's normalization -/

/-- The group's mean, `(sum of its 128 entries) / 128`. -/
def gmean (row : Fin 128 → EReal) : EReal := Ideal.div (∑ q, row q) c128

/-- The group's variance, `(sum of squared deviations) / 128`. -/
def gvar (row : Fin 128 → EReal) : EReal :=
  Ideal.div (∑ q, (row q - gmean row) * (row q - gmean row)) c128

/-- Entry `l` of a group normalized, biased and clipped — with the reciprocal square root, as the kernel has it. -/
def normK (row : Fin 128 → EReal) (bias : EReal) (l : Fin 128) : EReal :=
  min chi (max clo ((row l - gmean row) * Ideal.rsqrt (gvar row + ceps) + bias))

/-- The same with a quotient by the square root and the clip applied twice, as the reference has it. -/
def normR (row : Fin 128 → EReal) (bias : EReal) (l : Fin 128) : EReal :=
  min chi (max clo (min chi (max clo (Ideal.div (row l - gmean row) (Ideal.sqrt (gvar row + ceps)) + bias))))

/-- Clipping to `[a, b]` twice is clipping once. -/
theorem clip_clip {α : Type*} [LinearOrder α] (a b z : α) :
    min b (max a (min b (max a z))) = min b (max a z) := by
  rcases le_total a b with h | h
  · have h1 : a ≤ min b (max a z) := le_min h (le_max_left _ _)
    rw [max_eq_right h1, min_eq_right (min_le_left _ _)]
  · have h2 : ∀ y, min b (max a y) = b := fun y => min_eq_left (h.trans (le_max_left _ _))
    rw [h2, h2]

/-- Dividing by the square root of a positive real is multiplying by its reciprocal square root, whatever the
    numerator (an infinity included). -/
theorem div_sqrt_eq_mul_rsqrt (d : EReal) {w : ℝ} (hw : 0 < w) :
    Ideal.div d (Ideal.sqrt (w : EReal)) = d * Ideal.rsqrt (w : EReal) := by
  have hs : Real.sqrt w ≠ 0 := (Real.sqrt_pos.mpr hw).ne'
  rw [Ideal.sqrt_coe, Ideal.rsqrt_coe, if_neg (not_lt.mpr hw.le), if_neg (not_lt.mpr hw.le), if_neg hw.ne',
    Ideal.div_coe hs, one_div]

/-- For a group of real entries, `var + eps` is a positive real: the mean is real, so every deviation is, so the
    variance is a nonnegative real, and `eps` is positive. -/
theorem gvar_add_eps_pos (row : Fin 128 → EReal) (hrow : ∀ q, ∃ r : ℝ, row q = r) :
    ∃ w : ℝ, 0 < w ∧ gvar row + ceps = (w : EReal) := by
  choose rr hr using hrow
  obtain ⟨e, he, hce⟩ := ceps_pos
  have h128 : (128 : ℝ) ≠ 0 := by norm_num
  have hm : gmean row = (((∑ q, rr q) * (1 / 128) : ℝ) : EReal) := by
    unfold gmean
    rw [c128_eq, Ideal.div_coe h128, EReal.coe_mul, coe_sum]
    exact congrArg (· * _) (Finset.sum_congr rfl fun q _ => hr q)
  have hv : gvar row = (((∑ q, (rr q - (∑ q, rr q) * (1 / 128)) * (rr q - (∑ q, rr q) * (1 / 128))) * (1 / 128) : ℝ) : EReal) := by
    unfold gvar
    rw [c128_eq, Ideal.div_coe h128, EReal.coe_mul, coe_sum]
    refine congrArg (· * _) (Finset.sum_congr rfl fun q _ => ?_)
    rw [hm, hr q, ← EReal.coe_sub, ← EReal.coe_mul]
  refine ⟨_ + e, ?_, by rw [hv, hce, ← EReal.coe_add]⟩
  have : 0 ≤ (∑ q, (rr q - (∑ q, rr q) * (1 / 128)) * (rr q - (∑ q, rr q) * (1 / 128))) * (1 / 128 : ℝ) :=
    mul_nonneg (Finset.sum_nonneg fun q _ => mul_self_nonneg _) (by norm_num)
  linarith

/-- On a group of real entries the reference's spelling is the kernel's. -/
theorem normR_eq_normK (row : Fin 128 → EReal) (hrow : ∀ q, ∃ r : ℝ, row q = r) (bias : EReal) (l : Fin 128) :
    normR row bias l = normK row bias l := by
  obtain ⟨w, hw, e⟩ := gvar_add_eps_pos row hrow
  unfold normR normK
  rw [clip_clip, e, div_sqrt_eq_mul_rsqrt _ hw]

/-! ## The result array -/

/-- `y[R, C]`, the product's entry. -/
def prodAt (x : (⟨2, ![8192, 4096]⟩ : Shape).Idx → EReal) (W : (⟨2, ![4096, 4096]⟩ : Shape).Idx → EReal)
    (R : Fin 8192) (C : Fin 4096) : EReal :=
  ∑ k : Fin 4096, x (ix2 R k) * W (ix2 C k)

/-- Column `q` of the group that holds column `C`. -/
def grp (C : Fin 4096) (q : Fin 128) : Fin 4096 :=
  ⟨C.val / 128 * 128 + q.val, by have := C.isLt; have := q.isLt; omega⟩

/-- Column `C`'s place in its group. -/
def lane (C : Fin 4096) : Fin 128 := ⟨C.val % 128, Nat.mod_lt _ (by norm_num)⟩

/-- THE RESULT, as the kernel spells it: entry `(R, C)` is entry `lane C` of the normalized group of row `R` that holds `C`. -/
def G (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal := fun j =>
  normK (fun q => prodAt x W (j 0) (grp (j 1) q)) (b (ix1 (j 1))) (lane (j 1))

/-- The result as the reference spells it. -/
def Gref (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal := fun j =>
  normR (fun q => prodAt x W (j 0) (grp (j 1) q)) (b (ix1 (j 1))) (lane (j 1))

/-- On real inputs the two spellings are one array. -/
theorem Gref_eq_G (x : (⟨2, ![8192, 4096]⟩ : Shape).Idx → EReal) (W : (⟨2, ![4096, 4096]⟩ : Shape).Idx → EReal)
    (b : (⟨1, ![4096]⟩ : Shape).Idx → EReal) (hx : ∀ i, ∃ r : ℝ, x i = r) (hW : ∀ i, ∃ r : ℝ, W i = r) :
    Gref x W b = G x W b := by
  funext j
  exact normR_eq_normK _ (fun q => sum_mul_real _ _ (fun k => hx _) (fun k => hW _)) _ _

end Cert.GroupNorm

end
-- ==== Proof.RefValue.lean ====
/-
  The reference's result, read one operation at a time, is the specification's array `Gref`:
  a product, a reshape into groups of 128 columns, the group's mean and variance by sums over the
  group, the normalized entry by a quotient by the square root, the reshape back, the bias row added,
  and two clips.
-/
import proofs.«157290_j88940182766069_2_alg».proof.Proof.Gen.ReferenceIdeal.Read
import proofs.«157290_j88940182766069_2_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.GroupNorm

variable (x : (⟨S8192x4096, .f32⟩ : BufTy).Contents (Elt Ideal)) (W : (⟨S4096x4096, .f32⟩ : BufTy).Contents (Elt Ideal))
  (b : (⟨S4096, .f32⟩ : BufTy).Contents (Elt Ideal))

/-- Column `q` of group `g` (of 32). -/
def col (g : Fin 32) (q : Fin 128) : Fin 4096 := ⟨g.val * 128 + q.val, by have := g.isLt; have := q.isLt; omega⟩

/-- Row `R`'s group `g` of the product. -/
def row (R : Fin 8192) (g : Fin 32) : Fin 128 → EReal := fun q => prodAt x W R (col g q)

/-- The reshaped product at `(R, g, q)` is the product at `(R, 128 g + q)`. -/
theorem v1_at (i : S8192x32x128.Idx) : val_main_v1 (F := Ideal) x W i = row x W (i 0) (i 1) (i 2) := by
  have h0 : (i 0).val < 8192 := (i 0).isLt
  have h1 : (i 1).val < 32 := (i 1).isLt
  have h2 : (i 2).val < 128 := (i 2).isLt
  rw [val_main_v1_apply, val_main_v0_apply]
  unfold row prodAt
  refine Finset.sum_congr rfl fun k _ => ?_
  have e1 : lidx_main_v0 (idx_main_v1 i) k = ix2 (i 0) k := funext fun a => Fin.ext (by
    match a with
    | ⟨0, _⟩ => show (((i 0).val * 32 + (i 1).val) * 128 + (i 2).val) / 4096 = (i 0).val; omega
    | ⟨1, _⟩ => rfl)
  have e2 : ridx_main_v0 (idx_main_v1 i) k = ix2 (col (i 1) (i 2)) k := funext fun a => Fin.ext (by
    match a with
    | ⟨0, _⟩ => show (((i 0).val * 32 + (i 1).val) * 128 + (i 2).val) % 4096 = (i 1).val * 128 + (i 2).val; omega
    | ⟨1, _⟩ => rfl)
  rw [e1, e2]
  rfl

/-- The group's sum. -/
theorem v2_at (i : S8192x32.Idx) : val_main_v2 (F := Ideal) x W i = ∑ q, row x W (i 0) (i 1) q := by
  rw [val_main_v2_apply]
  show Ideal.ofBits .f32 0x00000000#32 + _ = _
  rw [Ideal.ofBits_zero_f32, zero_add]
  exact Finset.sum_congr rfl fun q _ => v1_at x W _

/-- The group's mean, kept as a column of height one. -/
theorem v5_at (i : S8192x32x1.Idx) : val_main_v5 (F := Ideal) x W i = gmean (row x W (i 0) (i 1)) := by
  rw [val_main_v5_apply, val_main_v3_apply, val_main_v4_apply, v2_at]
  rfl

/-- The deviation from the mean (the program computes it twice, identically). -/
theorem v7_at (i : S8192x32x128.Idx) :
    val_main_v7 (F := Ideal) x W i = row x W (i 0) (i 1) (i 2) - gmean (row x W (i 0) (i 1)) := by
  rw [val_main_v7_apply, val_main_v6_apply, v5_at, v1_at]
  rfl

theorem v14_at (i : S8192x32x128.Idx) :
    val_main_v14 (F := Ideal) x W i = row x W (i 0) (i 1) (i 2) - gmean (row x W (i 0) (i 1)) := by
  rw [val_main_v14_apply, val_main_v13_apply, v5_at, v1_at]
  rfl

/-- The sum of squared deviations, and the variance. -/
theorem v9_at (i : S8192x32.Idx) : val_main_v9 (F := Ideal) x W i
    = ∑ q, (row x W (i 0) (i 1) q - gmean (row x W (i 0) (i 1))) * (row x W (i 0) (i 1) q - gmean (row x W (i 0) (i 1))) := by
  rw [val_main_v9_apply]
  show Ideal.ofBits .f32 0x00000000#32 + _ = _
  rw [Ideal.ofBits_zero_f32, zero_add]
  refine Finset.sum_congr rfl fun q _ => ?_
  rw [val_main_v8_apply, v7_at]
  rfl

theorem v12_at (i : S8192x32x1.Idx) : val_main_v12 (F := Ideal) x W i = gvar (row x W (i 0) (i 1)) := by
  rw [val_main_v12_apply, val_main_v10_apply, val_main_v11_apply, v9_at]
  rfl

/-- The normalized entry: the deviation over the square root of `var + eps`. -/
theorem v19_at (i : S8192x32x128.Idx) : val_main_v19 (F := Ideal) x W i
    = Ideal.div (row x W (i 0) (i 1) (i 2) - gmean (row x W (i 0) (i 1))) (Ideal.sqrt (gvar (row x W (i 0) (i 1)) + ceps)) := by
  rw [val_main_v19_apply, v14_at, val_main_v18_apply, val_main_v17_apply, val_main_v16_apply, v12_at, val_main_v15_apply]
  rfl

/-- THE REFERENCE'S RESULT is `Gref`. -/
theorem result_eq : val_main_v25 (F := Ideal) x W b = Gref x W b := by
  funext i
  have h0 : (i 0).val < 8192 := (i 0).isLt
  have h1 : (i 1).val < 4096 := (i 1).isLt
  rw [val_main_v25_apply, val_main_call1_v4_apply, val_main_call1_v2_apply, val_main_call1_v1_apply,
    val_main_v24_apply, val_main_call0_v4_apply, val_main_call0_v2_apply, val_main_call0_v1_apply,
    val_main_v23_apply, val_main_v20_apply, v19_at, val_main_v22_apply, val_main_v21_apply]
  have e0 : idx_main_v20 i 0 = i 0 :=
    Fin.ext (by show ((i 0).val * 4096 + (i 1).val) / 4096 = (i 0).val; omega)
  have e1 : idx_main_v20 i 1 = (⟨(i 1).val / 128, by omega⟩ : Fin 32) :=
    Fin.ext (by show ((i 0).val * 4096 + (i 1).val) / 128 % 32 = (i 1).val / 128; omega)
  have e2 : idx_main_v20 i 2 = lane (i 1) :=
    Fin.ext (by show ((i 0).val * 4096 + (i 1).val) % 128 = (i 1).val % 128; omega)
  have e3 : idx_main_v21 (idx_main_v22 i) = ix1 (i 1) := funext fun a => Fin.ext (by
    match a with
    | ⟨0, _⟩ => rfl)
  rw [e0, e1, e2, e3]
  rfl

end Cert.ReferenceIdeal.RefValue

end
-- ==== Proof.Finite.lean ====
/-
  What the precondition says: every entry of the three arguments is a real number.

  The precondition is the conjunction of three tests "every entry's absolute value is below +infinity".  On the
  extended reals the absolute value `max x (-x)` of `-inf` or `+inf` is `+inf`, so an entry that passes is real.
-/
import proofs.«157290_j88940182766069_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- The word the test compares against denotes `+inf`. -/
theorem ofBits_inf : Ideal.ofBits .f32 0x7F800000#32 = (⊤ : EReal) := by
  simp [Ideal.ofBits, Ideal.ieee]

/-- An extended real whose absolute value is strictly below `+inf` is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < (⊤ : EReal) := by
    by_contra hn
    have hd : decide (max x (-x) < (⊤ : EReal)) = false := decide_eq_false hn
    simp only [Ideal.cmp, hd] at h
    exact absurd h (by decide)
  induction x using EReal.rec with
  | bot => exact absurd hlt (by simp)
  | top => exact absurd hlt (by simp)
  | coe r => exact ⟨r, rfl⟩

/-- THE PRECONDITION gives real entries in all three arguments. -/
theorem real_of_pre [Facts] (x : FVec Ideal S8192x4096 .f32) (W : FVec Ideal S4096x4096 .f32) (b : FVec Ideal S4096 .f32)
    (h : fn (F := Ideal) x W b = fun _ => 1#1) :
    (∀ i, ∃ r : ℝ, x i = (r : EReal)) ∧ (∀ i, ∃ r : ℝ, W i = (r : EReal)) ∧ (∀ i, ∃ r : ℝ, b i = (r : EReal)) := by
  have h0 := congrFun h ValueIdx.ix0
  dsimp only [fn] at h0
  obtain ⟨h01, h2⟩ := IntOp.andi_eq_one.1 h0
  obtain ⟨h00, h1⟩ := IntOp.andi_eq_one.1 h01
  refine ⟨fun i => ?_, fun i => ?_, fun i => ?_⟩
  · exact real_of_abs_lt _ (Host.reduce_andi_all _ _ _ _ _ h00 i)
  · exact real_of_abs_lt _ (Host.reduce_andi_all _ _ _ _ _ h1 i)
  · exact real_of_abs_lt _ (Host.reduce_andi_all _ _ _ _ _ h2 i)

end Cert.Finite

end
-- ==== Proof.Pieces.lean ====
/-
  What each control case of the kernel body leaves behind, as a term over the body's arithmetic.

  The body has three cases over the innermost grid coordinate `k` (of eight): at `k = 0` it zeroes the
  accumulator and adds the first partial product; at `0 < k < 7` it adds one more partial product to what the
  point before left; at `k = 7` it adds the last one and writes the normalized block.  Each lemma reads the
  stores the case's run found back as ONE value: every store here writes a whole buffer, so the last store
  into a buffer is what it holds, and a whole-buffer load of it reads that value back.
-/
import proofs.«157290_j88940182766069_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access. -/
theorem hz : (![0, 0] : Fin 2 → Nat) = fun _ => 0 := funext fun a => by fin_cases a <;> rfl

/-- At `k = 0` the accumulator ends at zero plus the first partial product. -/
theorem scratch_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  first
    | rw [View.canon_cons_unit_zero (S := S1024x1024) hz]
    | rw [View.canon_unit_zero (S := S1024x1024) hz]
  try rw [View.readCov_unit_zero (S := S1024x1024) _ hz]
  simp only [View.readAt_eq_ld, harg3.read_unread, harg4.read_unread, harg5.read_unread, harg7.read_unread,
    View.ld_unit_zero (S := S1024x1024) hz, View.ld_unit_zero (S := S1024x512) hz, View.ld_unit_zero (S := S1x1024) hz]
  try rfl

/-- At `0 < k < 7` the accumulator ends at what the point before left plus this point's partial product. -/
theorem scratch_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .bf16) (x1 : Vec F S1024x512 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  try sl_unfold_words
  first
    | rw [View.canon_cons_unit_zero (S := S1024x1024) hz]
    | rw [View.canon_unit_zero (S := S1024x1024) hz]
  try rw [View.readCov_unit_zero (S := S1024x1024) _ hz]
  simp only [View.readAt_eq_ld, harg3.read_unread, harg4.read_unread, harg5.read_unread, harg7.read_unread,
    View.ld_unit_zero (S := S1024x1024) hz, View.ld_unit_zero (S := S1024x512) hz, View.ld_unit_zero (S := S1x1024) hz]
  try rfl

/-- At `k = 7` likewise for the accumulator; -/
theorem scratch_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  try sl_unfold_words
  first
    | rw [View.canon_cons_unit_zero (S := S1024x1024) hz]
    | rw [View.canon_unit_zero (S := S1024x1024) hz]
  try rw [View.readCov_unit_zero (S := S1024x1024) _ hz]
  simp only [View.readAt_eq_ld, harg3.read_unread, harg4.read_unread, harg5.read_unread, harg7.read_unread,
    View.ld_unit_zero (S := S1024x1024) hz, View.ld_unit_zero (S := S1024x512) hz, View.ld_unit_zero (S := S1x1024) hz]
  try rfl

/-- and the output block is the epilogue (normalize, bias, clip) of that completed accumulator and the bias row. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  try sl_unfold_words
  first
    | rw [View.canon_cons_unit_zero (S := S1024x1024) hz]
    | rw [View.canon_unit_zero (S := S1024x1024) hz]
  try rw [View.readCov_unit_zero (S := S1024x1024) _ hz]
  simp only [View.readAt_eq_ld, harg3.read_unread, harg4.read_unread, harg5.read_unread, harg7.read_unread,
    View.ld_unit_zero (S := S1024x1024) hz, View.ld_unit_zero (S := S1024x512) hz, View.ld_unit_zero (S := S1x1024) hz]
  try rfl

end Cert.KernelIdeal.Pieces

end
-- ==== Proof.Payload.lean ====
/-
  The kernel body's arithmetic read at an index, on the extended reals.

  * the accumulation step: entry `(r, c)` of `acc + lhs · rhsᵀ` is `acc (r, c)` plus the sum over the 512
    contracted positions `q` of `lhs (r, q) * rhs (c, q)` (both operands are contracted along their second axis);
  * the epilogue: the 1024 columns of a block are 8 groups of 128; entry `(r, c)` is entry `c % 128` of group
    `c / 128` of row `r`, normalized with that group's mean and variance, plus the bias row's entry `c`, clipped.
-/
import proofs.«157290_j88940182766069_2_alg».proof.Proof.Gen.KernelIdeal.Skeleton
import proofs.«157290_j88940182766069_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe
open Idealize.ShloMosaic.ValueIdx Cert.GroupNorm

/-! ## The layout operations of the epilogue, at coordinates -/

/-- Column `q` of group `g` (of 8) in a block of 1024 columns. -/
def bcol (g : Fin 8) (q : Fin 128) : Fin 1024 := ⟨g.val * 128 + q.val, by have := g.isLt; have := q.isLt; omega⟩

/-- The group that holds column `c` of a block, and `c`'s place in it. -/
def bgrp (c : Fin 1024) : Fin 8 := ⟨c.val / 128, by have := c.isLt; omega⟩
def blane (c : Fin 1024) : Fin 128 := ⟨c.val % 128, Nat.mod_lt _ (by norm_num)⟩

section Layout
variable {α : Type}

/-- [1024, 1024] viewed as [1024, 8, 128]: `(r, g, q)` is `(r, 128 g + q)`. -/
theorem cast_groups (v : S1024x1024.Idx → α) (h : S1024x1024.ShapeCasts S1024x8x128) (r : Fin 1024) (g : Fin 8) (q : Fin 128) :
    shapeCast S1024x8x128 v h (ix3 r g q) = v (ix2 r (bcol g q)) :=
  shapeCast_apply v h _ _ (by
    rw [Shape.rowMajor_val_two, Shape.rowMajor_val_three]
    show r.val * 1024 + (g.val * 128 + q.val) = (r.val * 8 + g.val) * 128 + q.val
    omega)

/-- … and back: `(r, c)` is `(r, c / 128, c % 128)`. -/
theorem cast_flat (v : S1024x8x128.Idx → α) (h : S1024x8x128.ShapeCasts S1024x1024) (r c : Fin 1024) :
    shapeCast S1024x1024 v h (ix2 r c) = v (ix3 r (bgrp c) (blane c)) :=
  shapeCast_apply v h _ _ (by
    rw [Shape.rowMajor_val_three, Shape.rowMajor_val_two]
    show (r.val * 8 + c.val / 128) * 128 + c.val % 128 = r.val * 1024 + c.val
    have := c.isLt
    omega)

/-- A per-group value kept as a column of height one. -/
theorem cast_col (v : S1024x8.Idx → α) (h : S1024x8.ShapeCasts S1024x8x1) (r : Fin 1024) (g : Fin 8) (u : Fin 1) :
    shapeCast S1024x8x1 v h (ix3 r g u) = v (ix2 r g) :=
  shapeCast_apply v h _ _ (by
    have hu : u.val = 0 := by omega
    rw [Shape.rowMajor_val_two, Shape.rowMajor_val_three]
    show r.val * 8 + g.val = (r.val * 8 + g.val) * 1 + u.val
    omega)

/-- … spread over the group's 128 columns. -/
theorem bcast_col (v : S1024x8x1.Idx → α) (h : S1024x8x1.Broadcasts S1024x8x128) (r : Fin 1024) (g : Fin 8) (q : Fin 128) :
    broadcastTo S1024x8x128 v h (ix3 r g q) = v (ix3 r g (0 : Fin 1)) := by
  refine broadcastTo_apply v h (ix3 r g q) (ix3 r g (0 : Fin 1)) fun ax => ?_
  match ax with
  | ⟨0, _⟩ => rfl
  | ⟨1, _⟩ => rfl
  | ⟨2, _⟩ => rfl

end Layout

/-- The index a sum over the last axis visits. -/
theorem lift_eq (h : S1024x8x128.Reduces [2] S1024x8) (r : Fin 1024) (g : Fin 8) (q : Fin 128) :
    h.lift (ix2 r g) q = ix3 r g q :=
  funext fun a => Fin.ext (by
    match a with
    | ⟨0, _⟩ => rfl
    | ⟨1, _⟩ => rfl
    | ⟨2, _⟩ => rfl)

/-- A sum over a group's 128 columns (the reduction's initial word is the zero word, as printed). -/
theorem group_sum (v : FVec Ideal S1024x8x128 .f32) (h : S1024x8x128.Reduces [2] S1024x8) (hφ : FKind.Formats .f32)
    (hacc : (0x00000000#32 : BitVec 32) = 0x00000000#32) (r : Fin 1024) (g : Fin 8) :
    multiReduction (F := Ideal) .add [2] S1024x8 v 0x00000000#32 h hφ hacc (ix2 r g) = ∑ q : Fin 128, v (ix3 r g q) :=
  (Ideal.multiReduction_add_single v 0x00000000#32 h hφ hacc (ix2 r g)).trans
    (Finset.sum_congr rfl fun q _ => congrArg v (lift_eq h r g q))

/-! ## The payloads -/

/-- The zeroed accumulator. -/
theorem pay1_at (j : S1024x1024.Idx) : k0_pay1 (F := Ideal) j = 0 := by
  unfold k0_pay1
  simp only [shapeCast_self]
  exact Ideal.ofBits_zero_f32

/-- The product's operand indices: the left operand is read at the output's row, the right at the output's column,
    both at the contracted position. -/
theorem lhs_row (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_pos (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_row (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_pos (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

/-- One accumulation step at `(r, c)`. -/
theorem pay2_at (acc : FVec Ideal S1024x1024 .f32) (x0 x1 : FVec Ideal S1024x512 .bf16) (r c : Fin 1024) :
    k0_pay2 (F := Ideal) acc x0 x1 (ix2 r c) = acc (ix2 r c) + ∑ q : Fin 512, x0 (ix2 r q) * x1 (ix2 c q) := by
  unfold k0_pay2
  simp only [shapeCast_self]
  rw [addf_apply]
  refine congrArg (acc (ix2 r c) + ·) ?_
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r c) ((contrEquiv1 dot_S1024x512_S1024x512_S1024x1024_1_1_0_0_n_n 512 rfl rfl).symm k) = ix2 r k := funext fun a => Fin.ext (by
    match a with
    | ⟨0, _⟩ => exact lhs_row _ _
    | ⟨1, _⟩ => exact (lhs_pos _ _).trans hk)
  have er : dot_S1024x512_S1024x512_S1024x1024_1_1_0_0_n_n.rhsIdx (ix2 r c) ((contrEquiv1 dot_S1024x512_S1024x512_S1024x1024_1_1_0_0_n_n 512 rfl rfl).symm k) = ix2 c k := funext fun a => Fin.ext (by
    match a with
    | ⟨0, _⟩ => exact rhs_row _ _
    | ⟨1, _⟩ => exact (rhs_pos _ _).trans hk)
  rw [el, er]

/-! ## The epilogue, stage by stage -/

/-- Row `r`'s group `g` of a block. -/
def brow (acc : FVec Ideal S1024x1024 .f32) (r : Fin 1024) (g : Fin 8) : Fin 128 → EReal := fun q => acc (ix2 r (bcol g q))

section Epilogue
variable (acc : FVec Ideal S1024x1024 .f32) (bias : FVec Ideal S1x1024 .f32)

/-- The block viewed in groups. -/
def grouped : FVec Ideal S1024x8x128 .f32 := shapeCast S1024x8x128 acc shapeCasts_S1024x1024_S1024x8x128

/-- Each group's mean. -/
def meanV : FVec Ideal S1024x8x1 .f32 :=
  divf (shapeCast S1024x8x1 (multiReduction .add [2] S1024x8 (grouped acc) 0x00000000#32 reduces_S1024x8x128_S1024x8 (.inl rfl) rfl) shapeCasts_S1024x8_S1024x8x1)
    (broadcast S1024x8x1 (Scalar.ofBits .f32 0x43000000#32))

/-- Each entry's deviation from its group's mean. -/
def devV : FVec Ideal S1024x8x128 .f32 :=
  subf (grouped acc) (broadcastTo S1024x8x128 (meanV acc) broadcasts_S1024x8x1_S1024x8x128)

/-- Each group's variance. -/
def varV : FVec Ideal S1024x8x1 .f32 :=
  divf (shapeCast S1024x8x1 (multiReduction .add [2] S1024x8 (mulf (devV acc) (devV acc)) 0x00000000#32 reduces_S1024x8x128_S1024x8 (.inl rfl) rfl) shapeCasts_S1024x8_S1024x8x1)
    (broadcast S1024x8x1 (Scalar.ofBits .f32 0x43000000#32))

/-- Each group's reciprocal standard deviation. -/
def rsV : FVec Ideal S1024x8x1 .f32 :=
  rsqrt (addf (varV acc) (broadcast S1024x8x1 (Scalar.ofBits .f32 0x358637BD#32)))

/-- The whole epilogue. -/
def epi : FVec Ideal S1024x1024 .f32 :=
  minimumf (broadcast S1024x1024 (Scalar.ofBits .f32 0x40000000#32))
    (maximumf (broadcast S1024x1024 (Scalar.ofBits .f32 0xC0000000#32))
      (addf (shapeCast S1024x1024 (mulf (devV acc) (broadcastTo S1024x8x128 (rsV acc) broadcasts_S1024x8x1_S1024x8x128)) shapeCasts_S1024x8x128_S1024x1024)
        (broadcastTo S1024x1024 (shapeCast S1x1024 bias shapeCasts_S1x1024_S1x1024) broadcasts_S1x1024_S1024x1024)))

/-- The printed payload is that composition. -/
theorem pay3_eq : k0_pay3 (F := Ideal) acc bias = epi acc bias := rfl

theorem grouped_at (r : Fin 1024) (g : Fin 8) (q : Fin 128) : grouped acc (ix3 r g q) = brow acc r g q := by
  unfold grouped
  exact cast_groups acc _ r g q

theorem meanV_at (r : Fin 1024) (g : Fin 8) (u : Fin 1) : meanV acc (ix3 r g u) = gmean (brow acc r g) := by
  unfold meanV
  rw [divf_apply, cast_col, broadcast_apply]
  unfold gmean
  refine congrArg (fun s => Ideal.div s c128) ?_
  refine (group_sum (grouped acc) _ _ _ r g).trans ?_
  exact Finset.sum_congr rfl fun q _ => grouped_at acc r g q

theorem devV_at (r : Fin 1024) (g : Fin 8) (q : Fin 128) : devV acc (ix3 r g q) = brow acc r g q - gmean (brow acc r g) := by
  unfold devV
  rw [subf_apply, bcast_col, meanV_at, grouped_at]

theorem varV_at (r : Fin 1024) (g : Fin 8) (u : Fin 1) : varV acc (ix3 r g u) = gvar (brow acc r g) := by
  unfold varV
  rw [divf_apply, cast_col, broadcast_apply]
  unfold gvar
  refine congrArg (fun s => Ideal.div s c128) ?_
  refine (group_sum (mulf (devV acc) (devV acc)) _ _ _ r g).trans ?_
  refine Finset.sum_congr rfl fun q _ => ?_
  rw [mulf_apply, devV_at]

theorem rsV_at (r : Fin 1024) (g : Fin 8) (u : Fin 1) : rsV acc (ix3 r g u) = Ideal.rsqrt (gvar (brow acc r g) + ceps) := by
  unfold rsV
  show Ideal.rsqrt (varV acc (ix3 r g u) + ceps) = _
  rw [varV_at]

/-- The epilogue at `(r, c)`. -/
theorem pay3_at (r c : Fin 1024) :
    k0_pay3 (F := Ideal) acc bias (ix2 r c) = normK (brow acc r (bgrp c)) (bias (ix2 (0 : Fin 1) c)) (blane c) := by
  rw [pay3_eq]
  unfold epi
  rw [minimumf_apply, maximumf_apply, broadcast_apply, broadcast_apply, addf_apply, broadcastTo_1b_ab_apply, shapeCast_self, cast_flat,
    mulf_apply, bcast_col, devV_at, rsV_at]
  rfl

end Epilogue

end Cert.KernelIdeal.Payload

end
-- ==== Proof.Blocks.lean ====
/-
  Where the kernel's blocks sit in the arrays.

  The grid has 8 x 4 x 8 points, visited in row-major order: point `t` is `(i, j, k) = (t / 32, t / 8 % 4, t % 8)`.
  At that point the left operand's block is rows `1024 i ..` and columns `512 k ..` of `x`, the right operand's is
  rows `1024 j ..` and columns `512 k ..` of `W`, the bias block is columns `1024 j ..` of the bias row, and the
  output block is rows `1024 i ..`, columns `1024 j ..` of the result.  The arrays the kernel reads are copies the
  host made before the call: `x` and `W` in another float format (the identity on the extended reals) and the bias
  as a row of height one.
-/
import proofs.«157290_j88940182766069_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The printed index maps, decided over the 256 points -/

theorem index0 : ∀ t : Fin cfg0.N, win0_0.index t (0 : Fin 2) = t.val / 32 ∧ win0_0.index t (1 : Fin 2) = t.val % 8 :=
  (by decide +kernel : ∀ t : Fin grid0.N, _)
theorem index1 : ∀ t : Fin cfg0.N, win0_1.index t (0 : Fin 2) = t.val / 8 % 4 ∧ win0_1.index t (1 : Fin 2) = t.val % 8 :=
  (by decide +kernel : ∀ t : Fin grid0.N, _)
theorem index2 : ∀ t : Fin cfg0.N, win0_2.index t (0 : Fin 2) = 0 ∧ win0_2.index t (1 : Fin 2) = t.val / 8 % 4 :=
  (by decide +kernel : ∀ t : Fin grid0.N, _)
theorem index3 : ∀ t : Fin cfg0.N, win0_3.index t (0 : Fin 2) = t.val / 32 ∧ win0_3.index t (1 : Fin 2) = t.val / 8 % 4 :=
  (by decide +kernel : ∀ t : Fin grid0.N, _)

/-! ## The arrays the host wrote before the call -/

/-- The left operand's copy holds `x`. -/
theorem V_lhs (c : Dev nD) : (V m c main_v0 : S8192x4096.Idx → EReal) = m ((c : Thread nD τ).loc main_arg0) := by
  dsimp only [V, hostOps0]; after_results; rfl

/-- The right operand's copy holds `W`. -/
theorem V_rhs (c : Dev nD) : (V m c main_v1 : S4096x4096.Idx → EReal) = m ((c : Thread nD τ).loc main_arg1) := by
  dsimp only [V, hostOps0]; after_results; rfl

/-- The bias row holds the bias. -/
theorem V_bias (c : Dev nD) (u : Fin 1) (k : Fin 4096) :
    (V m c main_v2 : S1x4096.Idx → EReal) (ix2 u k) = m ((c : Thread nD τ).loc main_arg2) (ix1 k) := by
  have e : (V m c main_v2 : S1x4096.Idx → EReal)
      = shapeCast S1x4096 (m ((c : Thread nD τ).loc main_arg2)) shapeCasts_S4096_S1x4096 := by
    dsimp only [V, hostOps0]; after_results; rfl
  rw [e]
  exact shapeCast_a_1a_apply _ _ u k

/-! ## The blocks -/

/-- The left operand's block at point `t`. -/
theorem lhs_block (c : Dev nD) (t : Fin cfg0.N) (y : S1024x512.Idx) (i : S8192x4096.Idx)
    (h0 : (i 0).val = 1024 * (t.val / 32) + (y 0).val) (h1 : (i 1).val = 512 * (t.val % 8) + (y 1).val) :
    (iblk m c 0 t : S1024x512.Idx → EReal) y = m ((c : Thread nD τ).loc main_arg0) i := by
  obtain ⟨e0, e1⟩ := index0 t
  unfold iblk
  rw [View.read_apply]
  show (V m c main_v0 : S8192x4096.Idx → EReal) (((cfg0.win 0).blk t).view.emb y) = _
  rw [V_lhs]
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The right operand's block at point `t`. -/
theorem rhs_block (c : Dev nD) (t : Fin cfg0.N) (y : S1024x512.Idx) (i : S4096x4096.Idx)
    (h0 : (i 0).val = 1024 * (t.val / 8 % 4) + (y 0).val) (h1 : (i 1).val = 512 * (t.val % 8) + (y 1).val) :
    (iblk m c 1 t : S1024x512.Idx → EReal) y = m ((c : Thread nD τ).loc main_arg1) i := by
  obtain ⟨e0, e1⟩ := index1 t
  unfold iblk
  rw [View.read_apply]
  show (V m c main_v1 : S4096x4096.Idx → EReal) (((cfg0.win 1).blk t).view.emb y) = _
  rw [V_rhs]
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 512 + 1 * (y 1).val = (i 1).val; omega

/-- The bias block at point `t`. -/
theorem bias_block (c : Dev nD) (t : Fin cfg0.N) (cc : Fin 1024) (k : Fin 4096)
    (hk : k.val = 1024 * (t.val / 8 % 4) + cc.val) :
    (iblk m c 2 t : S1x1024.Idx → EReal) (ix2 (0 : Fin 1) cc) = m ((c : Thread nD τ).loc main_arg2) (ix1 k) := by
  obtain ⟨e0, e1⟩ := index2 t
  unfold iblk
  rw [View.read_apply, ← V_bias m c (0 : Fin 1) k]
  show (V m c main_v2 : S1x4096.Idx → EReal) (((cfg0.win 2).blk t).view.emb (ix2 (0 : Fin 1) cc)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * cc.val = k.val; omega

end Cert.KernelIdeal.Blocks

end
-- ==== Proof.Accum.lean ====
/-
  What the accumulator holds after each grid point.

  Point `t = (i, j, k)` adds to the accumulator the partial product over the contracted positions
  `512 k .. 512 k + 511` of rows `1024 i ..` of `x` against rows `1024 j ..` of `W`; the accumulator was zeroed at
  `k = 0`.  So after point `t` its entry `(r, cc)` is the sum of the first `512 (k + 1)` terms of the product's entry
  `(1024 i + r, 1024 j + cc)` — by induction along the run, one block of 512 terms per point (`part_step`).
-/
import proofs.«157290_j88940182766069_2_alg».proof.Proof.Pieces
import proofs.«157290_j88940182766069_2_alg».proof.Proof.Payload
import proofs.«157290_j88940182766069_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.GroupNorm

variable (m : (ℓ : Loc nD τ sig) → Buf (Elt Ideal) ℓ)

/-- The product's terms for the entry `(R, C)`. -/
def term (x : S8192x4096.Idx → EReal) (W : S4096x4096.Idx → EReal) (R : Fin 8192) (C : Fin 4096) : Fin 4096 → EReal :=
  fun k => x (ix2 R k) * W (ix2 C k)

/-- The array row of a block's row `r`, and the array column of a block's column `cc`, at the `n`-th grid point. -/
def rowOf (n : ℕ) (hn : n < 256) (r : Fin 1024) : Fin 8192 := ⟨1024 * (n / 32) + r.val, by have := r.isLt; omega⟩
def colOf (n : ℕ) (hn : n < 256) (cc : Fin 1024) : Fin 4096 := ⟨1024 * (n / 8 % 4) + cc.val, by have := cc.isLt; omega⟩

theorem lt256 {n : ℕ} (hn : n < cfg0.N) : n < 256 := lt_of_lt_of_eq hn (show cfg0.N = 256 from N_0)

/-- The arguments, as the kernel's device finds them. -/
abbrev argX (c : Dev nD) : S8192x4096.Idx → EReal := m ((c : Thread nD τ).loc main_arg0)
abbrev argW (c : Dev nD) : S4096x4096.Idx → EReal := m ((c : Thread nD τ).loc main_arg1)

/-- ONE POINT: an accumulator holding the first `512 k` terms ends holding the first `512 (k + 1)`. -/
theorem step (c : Dev nD) (t : Fin cfg0.N) (ht : t.val < 256) (acc : FVec Ideal S1024x1024 .f32) (r cc : Fin 1024)
    (hacc : acc (ix2 r cc) = part (term (argX m c) (argW m c) (rowOf t.val ht r) (colOf t.val ht cc)) (512 * (t.val % 8))) :
    k0_pay2 (F := Ideal) acc (iblk m c 0 t) (iblk m c 1 t) (ix2 r cc)
      = part (term (argX m c) (argW m c) (rowOf t.val ht r) (colOf t.val ht cc)) (512 * (t.val % 8 + 1)) := by
  refine (Payload.pay2_at acc (iblk m c 0 t) (iblk m c 1 t) r cc).trans ?_
  rw [hacc]
  refine (part_step _ (t.val % 8) (by omega) _ (fun q => ?_)).symm
  have hq := q.isLt
  exact congrArg₂ (· * ·)
    (Blocks.lhs_block m c t (ix2 r q) (ix2 (rowOf t.val ht r) ⟨512 * (t.val % 8) + q.val, by omega⟩) rfl rfl)
    (Blocks.rhs_block m c t (ix2 cc q) (ix2 (colOf t.val ht cc) ⟨512 * (t.val % 8) + q.val, by omega⟩) rfl rfl)

/-- A point with `k = 0`: the accumulator starts from zero. -/
theorem first (c : Dev nD) (t : Fin cfg0.N) (h0 : t.val % 8 = 0) (r cc : Fin 1024) :
    (outsAt0 m c t.val t.isLt).2 (ix2 r cc)
      = part (term (argX m c) (argW m c) (rowOf t.val (lt256 t.isLt) r) (colOf t.val (lt256 t.isLt) cc)) (512 * (t.val % 8 + 1)) := by
  have h1 : ¬t.val % 8 = 7 := by omega
  have key : (outsAt0 m c t.val t.isLt).2 = k0_pay2 (k0_pay1 (F := Ideal)) (iblk m c 0 t) (iblk m c 1 t) := by
    rw [outsAt0_A m c t h0 h1]
    dsimp only
    exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
      (iblk m c 0 t) (iblk m c 1 t) (iblk m c 2 t)
  refine (congrFun key (ix2 r cc)).trans (step m c t (lt256 t.isLt) _ r cc ?_)
  rw [Payload.pay1_at, h0, Nat.mul_zero, part_zero]

/-- THE ACCUMULATOR after the `n`-th point. -/
theorem scratch_at (c : Dev nD) : ∀ (n : ℕ) (hn : n < cfg0.N) (r cc : Fin 1024),
    (outsAt0 m c n hn).2 (ix2 r cc)
      = part (term (argX m c) (argW m c) (rowOf n (lt256 hn) r) (colOf n (lt256 hn) cc)) (512 * (n % 8 + 1)) := by
  intro n
  induction n with
  | zero => intro hn r cc; exact first m c ⟨0, hn⟩ rfl r cc
  | succ n ih =>
    intro hn r cc
    by_cases h0 : (n + 1) % 8 = 0
    · exact first m c ⟨n + 1, hn⟩ h0 r cc
    · have hN : n + 1 < 256 := lt256 hn
      have hp : n < cfg0.N := Nat.lt_of_succ_lt hn
      have key : (outsAt0 m c (n + 1) hn).2
          = k0_pay2 (F := Ideal) (outsAt0 m c n hp).2 (iblk m c 0 ⟨n + 1, hn⟩) (iblk m c 1 ⟨n + 1, hn⟩) := by
        by_cases h1 : (n + 1) % 8 = 7
        · rw [outsAt0_C m c ⟨n + 1, hn⟩ h0 h1]
          dsimp only
          exact Pieces.scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1)
            (iblk m c 0 ⟨n + 1, hn⟩) (iblk m c 1 ⟨n + 1, hn⟩) (iblk m c 2 ⟨n + 1, hn⟩) (outsAt0 m c n hp).2
        · rw [outsAt0_B m c ⟨n + 1, hn⟩ h0 h1]
          dsimp only
          exact Pieces.scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h))
            (iblk m c 0 ⟨n + 1, hn⟩) (iblk m c 1 ⟨n + 1, hn⟩) (iblk m c 2 ⟨n + 1, hn⟩) (outsAt0 m c n hp).2
      refine (congrFun key (ix2 r cc)).trans (step m c ⟨n + 1, hn⟩ hN _ r cc ?_)
      have e1 : rowOf n (lt256 hp) r = rowOf (n + 1) hN r :=
        Fin.ext (by show 1024 * (n / 32) + r.val = 1024 * ((n + 1) / 32) + r.val; omega)
      have e2 : colOf n (lt256 hp) cc = colOf (n + 1) hN cc :=
        Fin.ext (by show 1024 * (n / 8 % 4) + cc.val = 1024 * ((n + 1) / 8 % 4) + cc.val; omega)
      have e3 : n % 8 + 1 = (n + 1) % 8 := by omega
      rw [ih hp r cc, e1, e2, e3]

/-- After a point with `k = 7` the accumulator holds the product's whole entry. -/
theorem scratch_full (c : Dev nD) (t : Fin cfg0.N) (h7 : t.val % 8 = 7) (r cc : Fin 1024) :
    (outsAt0 m c t.val t.isLt).2 (ix2 r cc)
      = prodAt (argX m c) (argW m c) (rowOf t.val (lt256 t.isLt) r) (colOf t.val (lt256 t.isLt) cc) := by
  rw [scratch_at m c t.val t.isLt r cc, h7]
  exact part_full _

end Cert.KernelIdeal.Accum

end
-- ==== Proof.Final.lean ====
/-
  The kernel's result array is the specification's `G` of the arguments.

  Only the points with `k = 7` write a block back, and the block written at `(i, j, 7)` is the epilogue of the
  completed accumulator: rows `1024 i ..`, columns `1024 j ..` of `G`.  A group of 128 columns never straddles two
  blocks (1024 is a multiple of 128), so the group of array column `1024 j + cc` is the group `cc / 128` of the block.
  The 8 x 4 blocks written back tile the array.
-/
import proofs.«157290_j88940182766069_2_alg».proof.Proof.Accum
import proofs.«157290_j88940182766069_2_alg».proof.Proof.Gen.KernelIdeal.Value

noncomputable section

namespace Cert.KernelIdeal.Final

open Cert.KernelIdeal Cert.KernelIdeal.Gen Idealize.ShloMosaic Idealize.ShloMosaic.TcCoe Idealize.SL.Sem
open Idealize.ShloMosaic.ValueIdx Cert.GroupNorm Cert.KernelIdeal.Accum
open Idealize.ShloMosaic.Pipeline (Dat)

variable (m : (ℓ : Loc nD τ sig) → Buf (Elt Ideal) ℓ) (ρ : Dev nD → PrngReg)

/-- The bias argument. -/
abbrev argB (c : Dev nD) : S4096.Idx → EReal := m ((c : Thread nD τ).loc main_arg2)

/-- The result, as one function of the arguments. -/
abbrev result (c : Dev nD) : S8192x4096.Idx → EReal := G (argX m c) (argW m c) (argB m c)

/-- WHAT A POINT WITH `k = 7` WRITES BACK is its block of `G`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  have hN : t.val < 256 := lt256 t.isLt
  obtain ⟨e0, e1⟩ := Blocks.index3 t
  have hS : (outsAt0 m c t.val t.isLt).2
      = k0_pay2 (F := Ideal) (outsAt0 m c (t.val - 1) (Nat.lt_of_le_of_lt (Nat.sub_le _ _) t.isLt)).2 (iblk m c 0 t) (iblk m c 1 t) := by
    rw [outsAt0_C m c t h0 h7]
    dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2
  have key : (dats m 0 c).flushed 3 t
      = (cfg0.win 3).cut (grid0.coords t) (k0_pay3 (F := Ideal) (outsAt0 m c t.val t.isLt).2 (iblk m c 2 t)) := by
    rw [Value.flushed3_C m c t h0 h7, hS]
    exact congrArg ((cfg0.win 3).cut (grid0.coords t))
      (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
        (iblk m c 0 t) (iblk m c 1 t) (iblk m c 2 t) (outsAt0 m c (t.val - 1) (Nat.lt_of_le_of_lt (Nat.sub_le _ _) t.isLt)).2)
  rw [key]
  funext y
  have hy0 : (y 0).val < 1024 := (y 0).isLt
  have hy1 : (y 1).val < 1024 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have hx : (cfg0.win 3).xinj (grid0.coords t) y = ix2 (⟨(y 0).val, hy0⟩ : Fin 1024) (⟨(y 1).val, hy1⟩ : Fin 1024) :=
    funext fun a => Fin.ext (by
      match a with
      | ⟨0, _⟩ => rfl
      | ⟨1, _⟩ => rfl)
  show k0_pay3 (F := Ideal) (outsAt0 m c t.val t.isLt).2 (iblk m c 2 t) ((cfg0.win 3).xinj (grid0.coords t) y)
    = G (argX m c) (argW m c) (argB m c) (((cfg0.win 3).blk t).view.emb y)
  refine (congrArg (k0_pay3 (F := Ideal) (outsAt0 m c t.val t.isLt).2 (iblk m c 2 t)) hx).trans ?_
  refine (Payload.pay3_at (outsAt0 m c t.val t.isLt).2 (iblk m c 2 t) ⟨(y 0).val, hy0⟩ ⟨(y 1).val, hy1⟩).trans ?_
  unfold G
  have hrow : Payload.brow (outsAt0 m c t.val t.isLt).2 ⟨(y 0).val, hy0⟩ (Payload.bgrp ⟨(y 1).val, hy1⟩)
      = fun q => prodAt (argX m c) (argW m c) (((cfg0.win 3).blk t).view.emb y 0) (grp (((cfg0.win 3).blk t).view.emb y 1) q) := by
    funext q
    have hq := q.isLt
    unfold Payload.brow
    rw [scratch_full m c t h7]
    have r1 : rowOf t.val (lt256 t.isLt) ⟨(y 0).val, hy0⟩ = ((cfg0.win 3).blk t).view.emb y 0 :=
      Fin.ext (by show 1024 * (t.val / 32) + (y 0).val = _; rw [hb0]; omega)
    have r2 : colOf t.val (lt256 t.isLt) (Payload.bcol (Payload.bgrp ⟨(y 1).val, hy1⟩) q) = grp (((cfg0.win 3).blk t).view.emb y 1) q :=
      Fin.ext (by
        show 1024 * (t.val / 8 % 4) + ((y 1).val / 128 * 128 + q.val) = (((cfg0.win 3).blk t).view.emb y 1).val / 128 * 128 + q.val
        rw [hb1]; omega)
    rw [r1, r2]
  have hbias : (iblk m c 2 t : S1x1024.Idx → EReal) (ix2 (0 : Fin 1) (⟨(y 1).val, hy1⟩ : Fin 1024))
      = argB m c (ix1 (((cfg0.win 3).blk t).view.emb y 1)) :=
    Blocks.bias_block m c t ⟨(y 1).val, hy1⟩ (((cfg0.win 3).blk t).view.emb y 1) (by
      show (((cfg0.win 3).blk t).view.emb y 1).val = 1024 * (t.val / 8 % 4) + (y 1).val
      rw [hb1]; omega)
  have hlane : Payload.blane ⟨(y 1).val, hy1⟩ = lane (((cfg0.win 3).blk t).view.emb y 1) :=
    Fin.ext (by
      show (y 1).val % 128 = (((cfg0.win 3).blk t).view.emb y 1).val % 128
      rw [hb1]; omega)
  rw [hrow, hbias, hlane]

/-- An index is in point `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every index is in the block some `k = 7` point writes back: the point `(R / 1024, C / 1024, 7)`. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨e0, e1⟩ := Blocks.index3 t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run. -/
theorem final (c : Dev nD) : (dats m 0 c).arrAt 3 cfg0.N = result m c :=
  (dats m 0 c).arrAt_eq_of_cover 3 (result m c) (fun t hf => flushed_eq m c t hf) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A fused linear layer, group normalization and clip, against its plain reference.

  The kernel multiplies `x` [8192 x 4096] by `Wᵀ` [4096 x 4096] in blocks of 1024 x 1024 outputs, adding up the
  contraction in eight steps of 512 in an accumulator; when a block's product is complete it normalizes every
  group of 128 columns of every row (mean, variance, reciprocal square root of `variance + eps`), adds the bias and
  clips to [-2, 2].  The reference does the same on the whole arrays, dividing by the square root and clipping twice.

  * Spec.lean      — the result as one function `G` of the arguments on the extended reals, and why the two
                     spellings agree on real inputs (a positive real `variance + eps`; an idempotent clip).
  * RefValue.lean  — the reference's operations, read at an index, are `Gref`.
  * Pieces.lean    — what each of the kernel body's three control cases leaves, as a term over its arithmetic.
  * Payload.lean   — that arithmetic read at an index: an accumulation step, and the epilogue as `normK`.
  * Blocks.lean    — where each grid point's blocks sit in the arrays.
  * Accum.lean     — the accumulator after each point, by induction along the run.
  * Final.lean     — the blocks written back tile the result with `G`.
  * Finite.lean    — the precondition makes every input entry real.
  Here: the three frames, the (empty) idealization ledger, and the two runs set side by side.
-/
import proofs.«157290_j88940182766069_2_alg».proof.Defs
import proofs.«157290_j88940182766069_2_alg».proof.Proof.Gen.Kernel
import proofs.«157290_j88940182766069_2_alg».proof.Proof.Gen.Kernel.Skeleton
import proofs.«157290_j88940182766069_2_alg».proof.Proof.Gen.Kernel.Launch
import proofs.«157290_j88940182766069_2_alg».proof.Proof.Gen.Kernel.Points
import proofs.«157290_j88940182766069_2_alg».proof.Proof.Gen.Kernel.Frame
import proofs.«157290_j88940182766069_2_alg».proof.Proof.Gen.KernelIdeal
import proofs.«157290_j88940182766069_2_alg».proof.Proof.Gen.KernelIdeal.Skeleton
import proofs.«157290_j88940182766069_2_alg».proof.Proof.Gen.KernelIdeal.Launch
import proofs.«157290_j88940182766069_2_alg».proof.Proof.Gen.KernelIdeal.Points
import proofs.«157290_j88940182766069_2_alg».proof.Proof.Gen.KernelIdeal.Frame
import proofs.«157290_j88940182766069_2_alg».proof.Proof.Gen.ReferenceIdeal
import proofs.«157290_j88940182766069_2_alg».proof.Proof.Gen.Pre_finite_inputs
import proofs.«157290_j88940182766069_2_alg».proof.Proof.Gen.KernelIdeal.Value
import proofs.«157290_j88940182766069_2_alg».proof.Proof.Gen.ReferenceIdeal.Run
import proofs.«157290_j88940182766069_2_alg».proof.Proof.Gen.ReferenceIdeal.Read
import proofs.«157290_j88940182766069_2_alg».proof.Proof.Spec
import proofs.«157290_j88940182766069_2_alg».proof.Proof.RefValue
import proofs.«157290_j88940182766069_2_alg».proof.Proof.Finite
import proofs.«157290_j88940182766069_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories agreeing on real arguments, the kernel's result array is `G` of the arguments
    (Final.lean) and the reference's is `Gref` of them (RefValue.lean), which is `G` because the arguments are real
    (Finite.lean, Spec.lean). -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, -⟩ := Cert.Finite.real_of_pre _ _ _ (hpre c)
  rw [Cert.ReferenceIdeal.Read.val_main_v25_eq, Cert.ReferenceIdeal.RefValue.result_eq, (hagree c).1, (hagree c).2.1,
    (hagree c).2.2]
  exact Cert.GroupNorm.Gref_eq_G _ _ _ hx hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
